-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S3x128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S12800x128 : Shape := ⟨2, ![12800, 128]⟩
abbrev S12800x1 : Shape := ⟨2, ![12800, 1]⟩
abbrev S1x128 : Shape := ⟨2, ![1, 128]⟩
abbrev S5000x128 : Shape := ⟨2, ![5000, 128]⟩
abbrev S1x128x128 : Shape := ⟨3, ![1, 128, 128]⟩
abbrev S128x128 : Shape := ⟨2, ![128, 128]⟩

abbrev nBuf : Space → Nat
  | .hbm => 88
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S1600000, .i1⟩
  | .hbm, ⟨9, _⟩ => ⟨S_, .f32⟩
  | .hbm, ⟨10, _⟩ => ⟨S_, .f32⟩
  | .hbm, ⟨11, _⟩ => ⟨S1600000, .f32⟩
  | .hbm, ⟨12, _⟩ => ⟨S1600000, .f32⟩
  | .hbm, ⟨13, _⟩ => ⟨S1600000, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S_, .f32⟩
  | .hbm, ⟨51, _⟩ => ⟨S1600000, .f32⟩
  | .hbm, ⟨52, _⟩ => ⟨S1600000, .f32⟩
  | .hbm, ⟨53, _⟩ => ⟨S1600000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S100000x128, .f32⟩
  | .hbm, ⟨66, _⟩ => ⟨S1600000x1, .i32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .local _ .vmem, ⟨0, _⟩ => ⟨S12800x128, .f32⟩
  | .local _ .vmem, ⟨1, _⟩ => ⟨S12800x128, .f32⟩
  | .local _ .vmem, ⟨2, _⟩ => ⟨S12800x1, .f32⟩
  | .local _ .vmem, ⟨3, _⟩ => ⟨S12800x1, .f32⟩
  | .local _ .vmem, ⟨4, _⟩ => ⟨S12800x128, .f32⟩
  | .local _ .vmem, ⟨5, _⟩ => ⟨S12800x128, .f32⟩
  | .local _ .vmem, ⟨6, _⟩ => ⟨S12800x128, .f32⟩
  | .local _ .vmem, ⟨7, _⟩ => ⟨S12800x128, .f32⟩
  | .local _ .vmem, ⟨8, _⟩ => ⟨S12800x1, .f32⟩
  | .local _ .vmem, ⟨9, _⟩ => ⟨S12800x1, .f32⟩
  | .local _ .vmem, ⟨10, _⟩ => ⟨S12800x128, .f32⟩
  | .local _ .vmem, ⟨11, _⟩ => ⟨S12800x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S3x128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_c_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_c_13 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12800x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12800x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000_S1600000x1 : S1600000.ShapeCasts S1600000x1
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  broadcasts_S12800x1_S12800x128 : S12800x1.Broadcasts S12800x128
  bcast_S_S100000x128 : S_.BroadcastsInDim S100000x128 (![] : Fin 0 → Fin S100000x128.rank)
  shapeCasts_S128_S1x128 : S128.ShapeCasts S1x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  bitsLt_bf16_f32 : FTy.bits .bf16 < FTy.bits .f32
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x128.size a ≤ S1600000x128.size a
  hwx0_0 : ∀ i : grid0.Coords, EltTy.bits .f32 = 32 ∨ (Rect.block (s := S1600000x128) S12800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x1.size a ≤ S1600000x1.size a
  hwx0_1 : ∀ i : grid0.Coords, EltTy.bits .f32 = 32 ∨ (Rect.block (s := S1600000x1) S12800x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x128.size a ≤ S1600000x128.size a
  hwx0_2 : ∀ i : grid0.Coords, EltTy.bits .f32 = 32 ∨ (Rect.block (s := S1600000x128) S12800x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x128.size a ≤ S1600000x128.size a
  hwx1_0 : ∀ i : grid1.Coords, EltTy.bits .f32 = 32 ∨ (Rect.block (s := S1600000x128) S12800x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x1.size a ≤ S1600000x1.size a
  hwx1_1 : ∀ i : grid1.Coords, EltTy.bits .f32 = 32 ∨ (Rect.block (s := S1600000x1) S12800x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12800x128.size a ≤ S1600000x128.size a
  hwx1_2 : ∀ i : grid1.Coords, EltTy.bits .f32 = 32 ∨ (Rect.block (s := S1600000x128) S12800x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128x128.size a ≤ S3x128x128.size a
  hwx2_3 : ∀ i : grid2.Coords, EltTy.bits .f32 = 32 ∨ (Rect.block (s := S3x128x128) S3x128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v41) S12800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S12800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S12800x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S12800x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S12800x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S12800x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S3x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S1600000, .i1⟩
  | .hbm, ⟨9, _⟩ => ⟨S_, .f32⟩
  | .hbm, ⟨10, _⟩ => ⟨S_, .f32⟩
  | .hbm, ⟨11, _⟩ => ⟨S1600000, .f32⟩
  | .hbm, ⟨12, _⟩ => ⟨S1600000, .f32⟩
  | .hbm, ⟨13, _⟩ => ⟨S1600000, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S_, .f32⟩
  | .hbm, ⟨51, _⟩ => ⟨S1600000, .f32⟩
  | .hbm, ⟨52, _⟩ => ⟨S1600000, .f32⟩
  | .hbm, ⟨53, _⟩ => ⟨S1x128x128, .f32⟩
  | .hbm, ⟨54, _⟩ => ⟨S128x128, .f32⟩
  | .hbm, ⟨55, _⟩ => ⟨S100000x128, .f32⟩
  | .hbm, ⟨56, _⟩ => ⟨S1600000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128x128, .f32⟩
  | .hbm, ⟨77, _⟩ => ⟨S128x128, .f32⟩
  | .hbm, ⟨78, _⟩ => ⟨S100000x128, .f32⟩
  | .hbm, ⟨79, _⟩ => ⟨S100000x128, .f32⟩
  | .hbm, ⟨80, _⟩ => ⟨S1600000x1, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S1600000x128, .f32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S1x128x128, .f32⟩
  | .hbm, ⟨105, _⟩ => ⟨S128x128, .f32⟩
  | .hbm, ⟨106, _⟩ => ⟨S100000x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_c_14 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel program's run, with its result named.

  The program is three pipelined regions among stretches of host operations.  Its run ends with every unscoped buffer at
  the contents the fold through the program gives it; read at the result buffer this names the result array, and read at
  the argument buffers it returns the launch contents.
-/
import proofs.«104343_j56908316672630_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at what the fold
    through the program leaves there, and the four arguments end as launched. -/
theorem run_out : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v61 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩)

end Cert.KernelIdeal.Out

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«104343_j56908316672630_1_alg».proof.Proof.LibDense
import proofs.«104343_j56908316672630_1_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.Region0.lean ====
/-
  What the edge-message kernel leaves in its result array.

  Each grid point multiplies a block of 12800 gathered feature rows by the same 12800 rows of the one-column array of
  edge weights, the column broadcast along the 128 features.  A block's entry depends on the same entry of the feature
  block and on the weight of its row, so block `t` of the result is block `t` of ONE whole-array function: the rows of
  the gathered array scaled by the weight column.  The 125 blocks tile the 1600000 rows, so the result array is that
  function everywhere.
-/
import proofs.«104343_j56908316672630_1_alg».proof.Proof.Gen.KernelIdeal.Frame
import proofs.«104343_j56908316672630_1_alg».proof.Proof.LibRowScale
import Idealize.ShloMosaic.Lib.Pipeline.Value

set_option maxRecDepth 16384

noncomputable section

namespace Cert.KernelIdeal.Msg0

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.RowScale

variable (V : (c : Dev nD) → (b : Ref sig .tc) → Buf (Elt Ideal) ((c : Thread nD τ).loc b))

theorem hz : (![0, 0] : Fin 2 → Nat) = fun _ => 0 := funext fun a => by fin_cases a <;> rfl

/-- The body's value: the feature block's rows scaled by the block's weight column. -/
theorem pay_eq (x0 : Vec Ideal S12800x128 .f32) (x1 : Vec Ideal S12800x1 .f32) :
    k0_pay1 x0 x1 = scaleRows x0 x1 := by
  unfold k0_pay1
  rw [shapeCast_self, shapeCast_self]
  exact vecScaleRows x0 x1 _

/-- The three windows move together down the rows: at point `t` each is at row block `t`, column block 0. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the scaled rows of the arrays the region finds. -/
theorem flushed_eq (c : Dev nD) (t : Fin cfg0.N) :
    (dat0 V c).flushed 2 t
      = ((cfg0.win 2).blk t).view.read (Elt Ideal) (scaleRows (V c main_v41) (V c main_v34)) := by
  show (cfg0.win 2).cut (grid0.coords t) ((dat0 V c).after 2 t) = _
  rw [after0_2]
  unfold out0_2
  rw [View.canon_unit_zero hz]
  simp only [View.ld_unit_zero (S := S12800x128) hz, View.ld_unit_zero (S := S12800x1) hz]
  rw [pay_eq]
  obtain ⟨e0, e1, e2, e3, e4, e5⟩ := idx_facts t
  funext j
  show scaleRows (iblk0 V c 0 t) (iblk0 V c 1 t) j
      = scaleRows (V c main_v41) (V c main_v34) (((cfg0.win 2).blk t).view.emb j)
  refine scaleRows_at _ _ _ _ j _ ?_ ?_
  · show V c main_v41 (((cfg0.win 0).blk t).view.emb j) = V c main_v41 (((cfg0.win 2).blk t).view.emb j)
    refine congrArg _ (funext fun a => Fin.ext ?_)
    match a with
    | ⟨0, _⟩ => show win0_0.index t (0 : Fin 2) * 12800 + 1 * (j 0).val = win0_2.index t (0 : Fin 2) * 12800 + 1 * (j 0).val; omega
    | ⟨1, _⟩ => show win0_0.index t (1 : Fin 2) * 128 + 1 * (j 1).val = win0_2.index t (1 : Fin 2) * 128 + 1 * (j 1).val; omega
  · show V c main_v34 (((cfg0.win 1).blk t).view.emb (ix2 (c0 j) (0 : Fin 1)))
        = V c main_v34 (ix2 (c0 (((cfg0.win 2).blk t).view.emb j)) (0 : Fin 1))
    refine congrArg _ (funext fun a => Fin.ext ?_)
    match a with
    | ⟨0, _⟩ => show win0_1.index t (0 : Fin 2) * 12800 + 1 * (j 0).val = win0_2.index t (0 : Fin 2) * 12800 + 1 * (j 0).val; omega
    | ⟨1, _⟩ => show win0_1.index t (1 : Fin 2) * 1 + 1 * 0 = 0; omega

/-- An index of the result array is in point `t`'s block iff each coordinate is in the block's range on its axis. -/
theorem mem_blk (t : Fin cfg0.N) (i : S1600000x128.Idx) :
    i ∈ ((cfg0.win 2).blk t).view.set ↔ ∀ a : Fin 2, win0_2.index t a * S12800x128.size a ≤ (i a).val
      ∧ (i a).val < win0_2.index t a * S12800x128.size a + S12800x128.size a := by
  show i ∈ ((View.whole main_v42).slice (win0_2.rect t)).set ↔ _
  rw [View.set_slice_whole, Rect.mem_set_unit]
  exact Iff.rfl

/-- Row `r` of the result array lies in the block of point `r / 12800`. -/
theorem cover (i : S1600000x128.Idx) :
    ∃ t : Fin cfg0.N, (cfg0.win 2).flush t = true ∧ i ∈ ((cfg0.win 2).blk t).view.set := by
  have hi0 : (i 0).val < 1600000 := (i 0).isLt
  have hi1 : (i 1).val < 128 := (i 1).isLt
  have hN : cfg0.N = 125 := N_0
  have hq : (i 0).val / 12800 < cfg0.N := by rw [hN]; omega
  refine ⟨⟨(i 0).val / 12800, hq⟩, flush0_2 _, ?_⟩
  rw [mem_blk]
  obtain ⟨e0, e1, e2, e3, e4, e5⟩ := idx_facts ⟨(i 0).val / 12800, hq⟩
  intro a
  match a with
  | ⟨0, _⟩ =>
    show win0_2.index ⟨(i 0).val / 12800, hq⟩ (0 : Fin 2) * 12800 ≤ (i 0).val
      ∧ (i 0).val < win0_2.index ⟨(i 0).val / 12800, hq⟩ (0 : Fin 2) * 12800 + 12800
    rw [e4]; show (i 0).val / 12800 * 12800 ≤ (i 0).val ∧ (i 0).val < (i 0).val / 12800 * 12800 + 12800; omega
  | ⟨1, _⟩ =>
    show win0_2.index ⟨(i 0).val / 12800, hq⟩ (1 : Fin 2) * 128 ≤ (i 1).val
      ∧ (i 1).val < win0_2.index ⟨(i 0).val / 12800, hq⟩ (1 : Fin 2) * 128 + 128
    rw [e5]; omega

/-- The result array after the region: the rows of the gathered features scaled by the weight column. -/
theorem arr (c : Dev nD) :
    (dat0 V c).arrAt 2 cfg0.N = scaleRows (V c main_v41) (V c main_v34) :=
  (dat0 V c).arrAt_eq_of_cover 2 _ (fun t _ => flushed_eq V c t) (cover)

end Cert.KernelIdeal.Msg0

end
-- ==== Proof.HostK.lean ====
/-
  The host operations of the idealized kernel program, read at the buffers the three regions use.

  The program prepares, on the host, the source and destination node of every edge, the edge weights, and the gathered
  feature rows; between the regions it scatters the weighted messages back to the nodes and forms the second Chebyshev
  term.  These are the same operations, in the same order, as the reference program's, so each buffer's contents is
  stated as the reference's stage of the same name, a function of the launch contents of the arguments.
-/
import proofs.«104343_j56908316672630_1_alg».proof.Proof.Gen.KernelIdeal.Frame
import proofs.«104343_j56908316672630_1_alg».proof.Proof.RefReadP
import proofs.«104343_j56908316672630_1_alg».proof.Proof.Region0
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The launch contents of the four arguments. -/
abbrev x0 : (⟨S100000x128, .f32⟩ : BufTy).Contents (Elt Ideal) := m ((c : Thread nD τ).loc main_arg0)
abbrev x1 : (⟨S2x1600000, .i32⟩ : BufTy).Contents (Elt Ideal) := m ((c : Thread nD τ).loc main_arg1)
abbrev x2 : (⟨S3x128x128, .f32⟩ : BufTy).Contents (Elt Ideal) := m ((c : Thread nD τ).loc main_arg2)
abbrev x3 : (⟨S128, .f32⟩ : BufTy).Contents (Elt Ideal) := m ((c : Thread nD τ).loc main_arg3)

/-! ## Typed references of the two called functions: the transport to a buffer's own type and back is the identity -/

theorem ofBuf_main_cst (h1 : (main_cst : Ref sig .tc).ty = ⟨S_, .f32⟩) (h2 h3) (v : (⟨S_, .f32⟩ : BufTy).Contents (Elt Ideal)) :
    (TRef.of (T := ⟨S_, .f32⟩) main_cst h1 h2 h3).ofBuf (Val := Elt Ideal) v = v := rfl
theorem toBuf_main_cst (h1 : (main_cst : Ref sig .tc).ty = ⟨S_, .f32⟩) (h2 h3) (v : (⟨S_, .f32⟩ : BufTy).Contents (Elt Ideal)) :
    (TRef.of (T := ⟨S_, .f32⟩) main_cst h1 h2 h3).toBuf (Val := Elt Ideal) v = v := rfl
theorem ofBuf_main_cst_0 (h1 : (main_cst_0 : Ref sig .tc).ty = ⟨S_, .f32⟩) (h2 h3) (v : (⟨S_, .f32⟩ : BufTy).Contents (Elt Ideal)) :
    (TRef.of (T := ⟨S_, .f32⟩) main_cst_0 h1 h2 h3).ofBuf (Val := Elt Ideal) v = v := rfl
theorem toBuf_main_cst_0 (h1 : (main_cst_0 : Ref sig .tc).ty = ⟨S_, .f32⟩) (h2 h3) (v : (⟨S_, .f32⟩ : BufTy).Contents (Elt Ideal)) :
    (TRef.of (T := ⟨S_, .f32⟩) main_cst_0 h1 h2 h3).toBuf (Val := Elt Ideal) v = v := rfl
theorem ofBuf_main_call0_v0 (h1 : (main_call0_v0 : Ref sig .tc).ty = ⟨S1600000, .f32⟩) (h2 h3) (v : (⟨S1600000, .f32⟩ : BufTy).Contents (Elt Ideal)) :
    (TRef.of (T := ⟨S1600000, .f32⟩) main_call0_v0 h1 h2 h3).ofBuf (Val := Elt Ideal) v = v := rfl
theorem toBuf_main_call0_v0 (h1 : (main_call0_v0 : Ref sig .tc).ty = ⟨S1600000, .f32⟩) (h2 h3) (v : (⟨S1600000, .f32⟩ : BufTy).Contents (Elt Ideal)) :
    (TRef.of (T := ⟨S1600000, .f32⟩) main_call0_v0 h1 h2 h3).toBuf (Val := Elt Ideal) v = v := rfl
theorem ofBuf_main_call0_v1 (h1 : (main_call0_v1 : Ref sig .tc).ty = ⟨S1600000, .f32⟩) (h2 h3) (v : (⟨S1600000, .f32⟩ : BufTy).Contents (Elt Ideal)) :
    (TRef.of (T := ⟨S1600000, .f32⟩) main_call0_v1 h1 h2 h3).ofBuf (Val := Elt Ideal) v = v := rfl
theorem toBuf_main_call0_v1 (h1 : (main_call0_v1 : Ref sig .tc).ty = ⟨S1600000, .f32⟩) (h2 h3) (v : (⟨S1600000, .f32⟩ : BufTy).Contents (Elt Ideal)) :
    (TRef.of (T := ⟨S1600000, .f32⟩) main_call0_v1 h1 h2 h3).toBuf (Val := Elt Ideal) v = v := rfl
theorem ofBuf_main_v4 (h1 : (main_v4 : Ref sig .tc).ty = ⟨S1600000, .i1⟩) (h2 h3) (v : (⟨S1600000, .i1⟩ : BufTy).Contents (Elt Ideal)) :
    (TRef.of (T := ⟨S1600000, .i1⟩) main_v4 h1 h2 h3).ofBuf (Val := Elt Ideal) v = v := rfl
theorem toBuf_main_v4 (h1 : (main_v4 : Ref sig .tc).ty = ⟨S1600000, .i1⟩) (h2 h3) (v : (⟨S1600000, .i1⟩ : BufTy).Contents (Elt Ideal)) :
    (TRef.of (T := ⟨S1600000, .i1⟩) main_v4 h1 h2 h3).toBuf (Val := Elt Ideal) v = v := rfl
theorem ofBuf_main_v5 (h1 : (main_v5 : Ref sig .tc).ty = ⟨S1600000, .f32⟩) (h2 h3) (v : (⟨S1600000, .f32⟩ : BufTy).Contents (Elt Ideal)) :
    (TRef.of (T := ⟨S1600000, .f32⟩) main_v5 h1 h2 h3).ofBuf (Val := Elt Ideal) v = v := rfl
theorem toBuf_main_v5 (h1 : (main_v5 : Ref sig .tc).ty = ⟨S1600000, .f32⟩) (h2 h3) (v : (⟨S1600000, .f32⟩ : BufTy).Contents (Elt Ideal)) :
    (TRef.of (T := ⟨S1600000, .f32⟩) main_v5 h1 h2 h3).toBuf (Val := Elt Ideal) v = v := rfl
theorem ofBuf_main_cst_4 (h1 : (main_cst_4 : Ref sig .tc).ty = ⟨S_, .f32⟩) (h2 h3) (v : (⟨S_, .f32⟩ : BufTy).Contents (Elt Ideal)) :
    (TRef.of (T := ⟨S_, .f32⟩) main_cst_4 h1 h2 h3).ofBuf (Val := Elt Ideal) v = v := rfl
theorem toBuf_main_cst_4 (h1 : (main_cst_4 : Ref sig .tc).ty = ⟨S_, .f32⟩) (h2 h3) (v : (⟨S_, .f32⟩ : BufTy).Contents (Elt Ideal)) :
    (TRef.of (T := ⟨S_, .f32⟩) main_cst_4 h1 h2 h3).toBuf (Val := Elt Ideal) v = v := rfl
theorem ofBuf_main_call1_v0 (h1 : (main_call1_v0 : Ref sig .tc).ty = ⟨S_, .f32⟩) (h2 h3) (v : (⟨S_, .f32⟩ : BufTy).Contents (Elt Ideal)) :
    (TRef.of (T := ⟨S_, .f32⟩) main_call1_v0 h1 h2 h3).ofBuf (Val := Elt Ideal) v = v := rfl
theorem toBuf_main_call1_v0 (h1 : (main_call1_v0 : Ref sig .tc).ty = ⟨S_, .f32⟩) (h2 h3) (v : (⟨S_, .f32⟩ : BufTy).Contents (Elt Ideal)) :
    (TRef.of (T := ⟨S_, .f32⟩) main_call1_v0 h1 h2 h3).toBuf (Val := Elt Ideal) v = v := rfl
theorem ofBuf_main_call1_v1 (h1 : (main_call1_v1 : Ref sig .tc).ty = ⟨S100000, .f32⟩) (h2 h3) (v : (⟨S100000, .f32⟩ : BufTy).Contents (Elt Ideal)) :
    (TRef.of (T := ⟨S100000, .f32⟩) main_call1_v1 h1 h2 h3).ofBuf (Val := Elt Ideal) v = v := rfl
theorem toBuf_main_call1_v1 (h1 : (main_call1_v1 : Ref sig .tc).ty = ⟨S100000, .f32⟩) (h2 h3) (v : (⟨S100000, .f32⟩ : BufTy).Contents (Elt Ideal)) :
    (TRef.of (T := ⟨S100000, .f32⟩) main_call1_v1 h1 h2 h3).toBuf (Val := Elt Ideal) v = v := rfl
theorem ofBuf_main_v11 (h1 : (main_v11 : Ref sig .tc).ty = ⟨S100000, .i1⟩) (h2 h3) (v : (⟨S100000, .i1⟩ : BufTy).Contents (Elt Ideal)) :
    (TRef.of (T := ⟨S100000, .i1⟩) main_v11 h1 h2 h3).ofBuf (Val := Elt Ideal) v = v := rfl
theorem toBuf_main_v11 (h1 : (main_v11 : Ref sig .tc).ty = ⟨S100000, .i1⟩) (h2 h3) (v : (⟨S100000, .i1⟩ : BufTy).Contents (Elt Ideal)) :
    (TRef.of (T := ⟨S100000, .i1⟩) main_v11 h1 h2 h3).toBuf (Val := Elt Ideal) v = v := rfl
theorem ofBuf_main_v14 (h1 : (main_v14 : Ref sig .tc).ty = ⟨S100000, .f32⟩) (h2 h3) (v : (⟨S100000, .f32⟩ : BufTy).Contents (Elt Ideal)) :
    (TRef.of (T := ⟨S100000, .f32⟩) main_v14 h1 h2 h3).ofBuf (Val := Elt Ideal) v = v := rfl
theorem toBuf_main_v14 (h1 : (main_v14 : Ref sig .tc).ty = ⟨S100000, .f32⟩) (h2 h3) (v : (⟨S100000, .f32⟩ : BufTy).Contents (Elt Ideal)) :
    (TRef.of (T := ⟨S100000, .f32⟩) main_v14 h1 h2 h3).toBuf (Val := Elt Ideal) v = v := rfl
theorem ofBuf_main_v15 (h1 : (main_v15 : Ref sig .tc).ty = ⟨S100000, .f32⟩) (h2 h3) (v : (⟨S100000, .f32⟩ : BufTy).Contents (Elt Ideal)) :
    (TRef.of (T := ⟨S100000, .f32⟩) main_v15 h1 h2 h3).ofBuf (Val := Elt Ideal) v = v := rfl
theorem toBuf_main_v15 (h1 : (main_v15 : Ref sig .tc).ty = ⟨S100000, .f32⟩) (h2 h3) (v : (⟨S100000, .f32⟩ : BufTy).Contents (Elt Ideal)) :
    (TRef.of (T := ⟨S100000, .f32⟩) main_v15 h1 h2 h3).toBuf (Val := Elt Ideal) v = v := rfl

/-! ## Up to the first region's entry, one stretch of host operations at a time -/

theorem e1_v1 : W1 m ρ c (Proc.devRef .tc main_v1) = Cert.ReferenceIdeal.Read.val_main_v1 (F := Ideal) (x1 m c) := by
  show StableHlo.after hostOps0 (W0 m ρ c) (Proc.devRef .tc main_v1) = _
  after_results_simp
  rfl
theorem e1_v3 : W1 m ρ c (Proc.devRef .tc main_v3) = Cert.ReferenceIdeal.Read.val_main_v3 (F := Ideal) (x1 m c) := by
  show StableHlo.after hostOps0 (W0 m ρ c) (Proc.devRef .tc main_v3) = _
  after_results_simp
  rfl
theorem e1_v4 : W1 m ρ c (Proc.devRef .tc main_v4) = Cert.ReferenceIdeal.Read.val_main_v4 (F := Ideal) (x1 m c) := by
  show StableHlo.after hostOps0 (W0 m ρ c) (Proc.devRef .tc main_v4) = _
  after_results_simp
  rfl
theorem e1_cst : W1 m ρ c (Proc.devRef .tc main_cst) = Cert.ReferenceIdeal.Read.val_main_cst (F := Ideal) := by
  show StableHlo.after hostOps0 (W0 m ρ c) (Proc.devRef .tc main_cst) = _
  after_results_simp
  rfl
theorem e1_cst0 : W1 m ρ c (Proc.devRef .tc main_cst_0) = Cert.ReferenceIdeal.Read.val_main_cst_0 (F := Ideal) := by
  show StableHlo.after hostOps0 (W0 m ρ c) (Proc.devRef .tc main_cst_0) = _
  after_results_simp
  rfl
theorem e1_arg0 : W1 m ρ c (Proc.devRef .tc main_arg0) = (x0 m c) := by
  show StableHlo.after hostOps0 (W0 m ρ c) (Proc.devRef .tc main_arg0) = _
  after_results_simp
theorem e1_arg2 : W1 m ρ c (Proc.devRef .tc main_arg2) = (x2 m c) := by
  show StableHlo.after hostOps0 (W0 m ρ c) (Proc.devRef .tc main_arg2) = _
  after_results_simp
theorem e1_arg3 : W1 m ρ c (Proc.devRef .tc main_arg3) = (x3 m c) := by
  show StableHlo.after hostOps0 (W0 m ρ c) (Proc.devRef .tc main_arg3) = _
  after_results_simp
set_option maxHeartbeats 4000000 in
theorem e2_v5 : W2 m ρ c (Proc.devRef .tc main_v5) = Cert.ReferenceIdeal.Read.val_main_v5 (F := Ideal) (x1 m c) := by
  have l0 := e1_v4 m ρ c
  have l1 := e1_cst m ρ c
  have l2 := e1_cst0 m ρ c
  show StableHlo.after hostOps0_1 (W1 m ρ c) (Proc.devRef .tc main_v5) = _
  generalize W1 m ρ c = Wp at l0 l1 l2 ⊢
  after_results_simp
  simp only [l0, l1, l2, ofBuf_main_cst, toBuf_main_cst, ofBuf_main_cst_0, toBuf_main_cst_0, ofBuf_main_call0_v0, toBuf_main_call0_v0, ofBuf_main_call0_v1, toBuf_main_call0_v1, ofBuf_main_v4, toBuf_main_v4, ofBuf_main_v5, toBuf_main_v5, ofBuf_main_cst_4, toBuf_main_cst_4, ofBuf_main_call1_v0, toBuf_main_call1_v0, ofBuf_main_call1_v1, toBuf_main_call1_v1, ofBuf_main_v11, toBuf_main_v11, ofBuf_main_v14, toBuf_main_v14, ofBuf_main_v15, toBuf_main_v15]
  rfl
theorem e2_v1 : W2 m ρ c (Proc.devRef .tc main_v1) = Cert.ReferenceIdeal.Read.val_main_v1 (F := Ideal) (x1 m c) := by
  have l0 := e1_v1 m ρ c
  show StableHlo.after hostOps0_1 (W1 m ρ c) (Proc.devRef .tc main_v1) = _
  generalize W1 m ρ c = Wp at l0 ⊢
  after_results_simp
  exact l0
theorem e2_v3 : W2 m ρ c (Proc.devRef .tc main_v3) = Cert.ReferenceIdeal.Read.val_main_v3 (F := Ideal) (x1 m c) := by
  have l0 := e1_v3 m ρ c
  show StableHlo.after hostOps0_1 (W1 m ρ c) (Proc.devRef .tc main_v3) = _
  generalize W1 m ρ c = Wp at l0 ⊢
  after_results_simp
  exact l0
theorem e2_arg0 : W2 m ρ c (Proc.devRef .tc main_arg0) = (x0 m c) := by
  have l0 := e1_arg0 m ρ c
  show StableHlo.after hostOps0_1 (W1 m ρ c) (Proc.devRef .tc main_arg0) = _
  generalize W1 m ρ c = Wp at l0 ⊢
  after_results_simp
  exact l0
theorem e2_arg2 : W2 m ρ c (Proc.devRef .tc main_arg2) = (x2 m c) := by
  have l0 := e1_arg2 m ρ c
  show StableHlo.after hostOps0_1 (W1 m ρ c) (Proc.devRef .tc main_arg2) = _
  generalize W1 m ρ c = Wp at l0 ⊢
  after_results_simp
  exact l0
theorem e2_arg3 : W2 m ρ c (Proc.devRef .tc main_arg3) = (x3 m c) := by
  have l0 := e1_arg3 m ρ c
  show StableHlo.after hostOps0_1 (W1 m ρ c) (Proc.devRef .tc main_arg3) = _
  generalize W1 m ρ c = Wp at l0 ⊢
  after_results_simp
  exact l0
set_option maxHeartbeats 4000000 in
theorem e3_v6 : W3 m ρ c (Proc.devRef .tc main_v6) = Cert.ReferenceIdeal.Read.val_main_v6 (F := Ideal) (x1 m c) := by
  have l0 := e2_v5 m ρ c
  show StableHlo.after hostOps0_2 (W2 m ρ c) (Proc.devRef .tc main_v6) = _
  generalize W2 m ρ c = Wp at l0 ⊢
  after_results_simp
  simp only [l0]
  rfl
set_option maxHeartbeats 4000000 in
theorem e3_v11 : W3 m ρ c (Proc.devRef .tc main_v11) = Cert.ReferenceIdeal.Read.val_main_v11 (F := Ideal) (x1 m c) := by
  have l0 := e2_v5 m ρ c
  have l1 := e2_v1 m ρ c
  show StableHlo.after hostOps0_2 (W2 m ρ c) (Proc.devRef .tc main_v11) = _
  generalize W2 m ρ c = Wp at l0 l1 ⊢
  after_results_simp
  simp only [l0, l1]
  rfl
set_option maxHeartbeats 4000000 in
theorem e3_v14 : W3 m ρ c (Proc.devRef .tc main_v14) = Cert.ReferenceIdeal.Read.val_main_v14 (F := Ideal) (x1 m c) := by
  have l0 := e2_v5 m ρ c
  have l1 := e2_v1 m ρ c
  show StableHlo.after hostOps0_2 (W2 m ρ c) (Proc.devRef .tc main_v14) = _
  generalize W2 m ρ c = Wp at l0 l1 ⊢
  after_results_simp
  simp only [l0, l1]
  rfl
theorem e3_cst4 : W3 m ρ c (Proc.devRef .tc main_cst_4) = Cert.ReferenceIdeal.Read.val_main_cst_4 (F := Ideal) := by
  show StableHlo.after hostOps0_2 (W2 m ρ c) (Proc.devRef .tc main_cst_4) = _
  generalize W2 m ρ c = Wp
  after_results_simp
  rfl
theorem e3_v1 : W3 m ρ c (Proc.devRef .tc main_v1) = Cert.ReferenceIdeal.Read.val_main_v1 (F := Ideal) (x1 m c) := by
  have l0 := e2_v1 m ρ c
  show StableHlo.after hostOps0_2 (W2 m ρ c) (Proc.devRef .tc main_v1) = _
  generalize W2 m ρ c = Wp at l0 ⊢
  after_results_simp
  exact l0
theorem e3_v3 : W3 m ρ c (Proc.devRef .tc main_v3) = Cert.ReferenceIdeal.Read.val_main_v3 (F := Ideal) (x1 m c) := by
  have l0 := e2_v3 m ρ c
  show StableHlo.after hostOps0_2 (W2 m ρ c) (Proc.devRef .tc main_v3) = _
  generalize W2 m ρ c = Wp at l0 ⊢
  after_results_simp
  exact l0
theorem e3_arg0 : W3 m ρ c (Proc.devRef .tc main_arg0) = (x0 m c) := by
  have l0 := e2_arg0 m ρ c
  show StableHlo.after hostOps0_2 (W2 m ρ c) (Proc.devRef .tc main_arg0) = _
  generalize W2 m ρ c = Wp at l0 ⊢
  after_results_simp
  exact l0
theorem e3_arg2 : W3 m ρ c (Proc.devRef .tc main_arg2) = (x2 m c) := by
  have l0 := e2_arg2 m ρ c
  show StableHlo.after hostOps0_2 (W2 m ρ c) (Proc.devRef .tc main_arg2) = _
  generalize W2 m ρ c = Wp at l0 ⊢
  after_results_simp
  exact l0
theorem e3_arg3 : W3 m ρ c (Proc.devRef .tc main_arg3) = (x3 m c) := by
  have l0 := e2_arg3 m ρ c
  show StableHlo.after hostOps0_2 (W2 m ρ c) (Proc.devRef .tc main_arg3) = _
  generalize W2 m ρ c = Wp at l0 ⊢
  after_results_simp
  exact l0
set_option maxHeartbeats 4000000 in
theorem e4_v15 : W4 m ρ c (Proc.devRef .tc main_v15) = Cert.ReferenceIdeal.Read.val_main_v15 (F := Ideal) (x1 m c) := by
  have l0 := e3_v11 m ρ c
  have l1 := e3_v14 m ρ c
  have l2 := e3_cst4 m ρ c
  show StableHlo.after hostOps0_3 (W3 m ρ c) (Proc.devRef .tc main_v15) = _
  generalize W3 m ρ c = Wp at l0 l1 l2 ⊢
  after_results_simp
  simp only [l0, l1, l2, ofBuf_main_cst, toBuf_main_cst, ofBuf_main_cst_0, toBuf_main_cst_0, ofBuf_main_call0_v0, toBuf_main_call0_v0, ofBuf_main_call0_v1, toBuf_main_call0_v1, ofBuf_main_v4, toBuf_main_v4, ofBuf_main_v5, toBuf_main_v5, ofBuf_main_cst_4, toBuf_main_cst_4, ofBuf_main_call1_v0, toBuf_main_call1_v0, ofBuf_main_call1_v1, toBuf_main_call1_v1, ofBuf_main_v11, toBuf_main_v11, ofBuf_main_v14, toBuf_main_v14, ofBuf_main_v15, toBuf_main_v15]
  rfl
theorem e4_v1 : W4 m ρ c (Proc.devRef .tc main_v1) = Cert.ReferenceIdeal.Read.val_main_v1 (F := Ideal) (x1 m c) := by
  have l0 := e3_v1 m ρ c
  show StableHlo.after hostOps0_3 (W3 m ρ c) (Proc.devRef .tc main_v1) = _
  generalize W3 m ρ c = Wp at l0 ⊢
  after_results_simp
  exact l0
theorem e4_v3 : W4 m ρ c (Proc.devRef .tc main_v3) = Cert.ReferenceIdeal.Read.val_main_v3 (F := Ideal) (x1 m c) := by
  have l0 := e3_v3 m ρ c
  show StableHlo.after hostOps0_3 (W3 m ρ c) (Proc.devRef .tc main_v3) = _
  generalize W3 m ρ c = Wp at l0 ⊢
  after_results_simp
  exact l0
theorem e4_v6 : W4 m ρ c (Proc.devRef .tc main_v6) = Cert.ReferenceIdeal.Read.val_main_v6 (F := Ideal) (x1 m c) := by
  have l0 := e3_v6 m ρ c
  show StableHlo.after hostOps0_3 (W3 m ρ c) (Proc.devRef .tc main_v6) = _
  generalize W3 m ρ c = Wp at l0 ⊢
  after_results_simp
  exact l0
theorem e4_arg0 : W4 m ρ c (Proc.devRef .tc main_arg0) = (x0 m c) := by
  have l0 := e3_arg0 m ρ c
  show StableHlo.after hostOps0_3 (W3 m ρ c) (Proc.devRef .tc main_arg0) = _
  generalize W3 m ρ c = Wp at l0 ⊢
  after_results_simp
  exact l0
theorem e4_arg2 : W4 m ρ c (Proc.devRef .tc main_arg2) = (x2 m c) := by
  have l0 := e3_arg2 m ρ c
  show StableHlo.after hostOps0_3 (W3 m ρ c) (Proc.devRef .tc main_arg2) = _
  generalize W3 m ρ c = Wp at l0 ⊢
  after_results_simp
  exact l0
theorem e4_arg3 : W4 m ρ c (Proc.devRef .tc main_arg3) = (x3 m c) := by
  have l0 := e3_arg3 m ρ c
  show StableHlo.after hostOps0_3 (W3 m ρ c) (Proc.devRef .tc main_arg3) = _
  generalize W3 m ρ c = Wp at l0 ⊢
  after_results_simp
  exact l0
set_option maxHeartbeats 4000000 in
theorem e5_v34 : W5 m ρ c (Proc.devRef .tc main_v34) = shapeCast S1600000x1 (Cert.ReferenceIdeal.Read.val_main_v33 (F := Ideal) (x1 m c)) shapeCasts_S1600000_S1600000x1 := by
  have l0 := e4_v1 m ρ c
  have l1 := e4_v3 m ρ c
  have l2 := e4_v6 m ρ c
  have l3 := e4_v15 m ρ c
  show StableHlo.after hostOps0_4 (W4 m ρ c) (Proc.devRef .tc main_v34) = _
  generalize W4 m ρ c = Wp at l0 l1 l2 l3 ⊢
  after_results_simp
  simp only [l0, l1, l2, l3]
  rfl
set_option maxHeartbeats 4000000 in
theorem e5_v41 : W5 m ρ c (Proc.devRef .tc main_v41) = Cert.ReferenceIdeal.Read.val_main_v44 (F := Ideal) (x0 m c) (x1 m c) := by
  have l0 := e4_v1 m ρ c
  have l1 := e4_arg0 m ρ c
  show StableHlo.after hostOps0_4 (W4 m ρ c) (Proc.devRef .tc main_v41) = _
  generalize W4 m ρ c = Wp at l0 l1 ⊢
  after_results_simp
  simp only [l0, l1]
  rfl
theorem e5_v1 : W5 m ρ c (Proc.devRef .tc main_v1) = Cert.ReferenceIdeal.Read.val_main_v1 (F := Ideal) (x1 m c) := by
  have l0 := e4_v1 m ρ c
  show StableHlo.after hostOps0_4 (W4 m ρ c) (Proc.devRef .tc main_v1) = _
  generalize W4 m ρ c = Wp at l0 ⊢
  after_results_simp
  exact l0
theorem e5_v3 : W5 m ρ c (Proc.devRef .tc main_v3) = Cert.ReferenceIdeal.Read.val_main_v3 (F := Ideal) (x1 m c) := by
  have l0 := e4_v3 m ρ c
  show StableHlo.after hostOps0_4 (W4 m ρ c) (Proc.devRef .tc main_v3) = _
  generalize W4 m ρ c = Wp at l0 ⊢
  after_results_simp
  exact l0
theorem e5_arg0 : W5 m ρ c (Proc.devRef .tc main_arg0) = (x0 m c) := by
  have l0 := e4_arg0 m ρ c
  show StableHlo.after hostOps0_4 (W4 m ρ c) (Proc.devRef .tc main_arg0) = _
  generalize W4 m ρ c = Wp at l0 ⊢
  after_results_simp
  exact l0
theorem e5_arg2 : W5 m ρ c (Proc.devRef .tc main_arg2) = (x2 m c) := by
  have l0 := e4_arg2 m ρ c
  show StableHlo.after hostOps0_4 (W4 m ρ c) (Proc.devRef .tc main_arg2) = _
  generalize W4 m ρ c = Wp at l0 ⊢
  after_results_simp
  exact l0
theorem e5_arg3 : W5 m ρ c (Proc.devRef .tc main_arg3) = (x3 m c) := by
  have l0 := e4_arg3 m ρ c
  show StableHlo.after hostOps0_4 (W4 m ρ c) (Proc.devRef .tc main_arg3) = _
  generalize W4 m ρ c = Wp at l0 ⊢
  after_results_simp
  exact l0

end Cert.KernelIdeal.Host

end
-- ==== Proof.Region1.lean ====
/-
  What the edge-message kernel leaves in its result array.

  Each grid point multiplies a block of 12800 gathered feature rows by the same 12800 rows of the one-column array of
  edge weights, the column broadcast along the 128 features.  A block's entry depends on the same entry of the feature
  block and on the weight of its row, so block `t` of the result is block `t` of ONE whole-array function: the rows of
  the gathered array scaled by the weight column.  The 125 blocks tile the 1600000 rows, so the result array is that
  function everywhere.
-/
import proofs.«104343_j56908316672630_1_alg».proof.Proof.Gen.KernelIdeal.Frame
import proofs.«104343_j56908316672630_1_alg».proof.Proof.LibRowScale
import Idealize.ShloMosaic.Lib.Pipeline.Value

set_option maxRecDepth 16384

noncomputable section

namespace Cert.KernelIdeal.Msg1

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.RowScale

variable (V : (c : Dev nD) → (b : Ref sig .tc) → Buf (Elt Ideal) ((c : Thread nD τ).loc b))

theorem hz : (![0, 0] : Fin 2 → Nat) = fun _ => 0 := funext fun a => by fin_cases a <;> rfl

/-- The body's value: the feature block's rows scaled by the block's weight column. -/
theorem pay_eq (x0 : Vec Ideal S12800x128 .f32) (x1 : Vec Ideal S12800x1 .f32) :
    k1_pay1 x0 x1 = scaleRows x0 x1 := by
  unfold k1_pay1
  rw [shapeCast_self, shapeCast_self]
  exact vecScaleRows x0 x1 _

/-- The three windows move together down the rows: at point `t` each is at row block `t`, column block 0. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the scaled rows of the arrays the region finds. -/
theorem flushed_eq (c : Dev nD) (t : Fin cfg1.N) :
    (dat1 V c).flushed 2 t
      = ((cfg1.win 2).blk t).view.read (Elt Ideal) (scaleRows (V c main_v52) (V c main_v34)) := by
  show (cfg1.win 2).cut (grid1.coords t) ((dat1 V c).after 2 t) = _
  rw [after1_2]
  unfold out1_2
  rw [View.canon_unit_zero hz]
  simp only [View.ld_unit_zero (S := S12800x128) hz, View.ld_unit_zero (S := S12800x1) hz]
  rw [pay_eq]
  obtain ⟨e0, e1, e2, e3, e4, e5⟩ := idx_facts t
  funext j
  show scaleRows (iblk1 V c 0 t) (iblk1 V c 1 t) j
      = scaleRows (V c main_v52) (V c main_v34) (((cfg1.win 2).blk t).view.emb j)
  refine scaleRows_at _ _ _ _ j _ ?_ ?_
  · show V c main_v52 (((cfg1.win 0).blk t).view.emb j) = V c main_v52 (((cfg1.win 2).blk t).view.emb j)
    refine congrArg _ (funext fun a => Fin.ext ?_)
    match a with
    | ⟨0, _⟩ => show win1_0.index t (0 : Fin 2) * 12800 + 1 * (j 0).val = win1_2.index t (0 : Fin 2) * 12800 + 1 * (j 0).val; omega
    | ⟨1, _⟩ => show win1_0.index t (1 : Fin 2) * 128 + 1 * (j 1).val = win1_2.index t (1 : Fin 2) * 128 + 1 * (j 1).val; omega
  · show V c main_v34 (((cfg1.win 1).blk t).view.emb (ix2 (c0 j) (0 : Fin 1)))
        = V c main_v34 (ix2 (c0 (((cfg1.win 2).blk t).view.emb j)) (0 : Fin 1))
    refine congrArg _ (funext fun a => Fin.ext ?_)
    match a with
    | ⟨0, _⟩ => show win1_1.index t (0 : Fin 2) * 12800 + 1 * (j 0).val = win1_2.index t (0 : Fin 2) * 12800 + 1 * (j 0).val; omega
    | ⟨1, _⟩ => show win1_1.index t (1 : Fin 2) * 1 + 1 * 0 = 0; omega

/-- An index of the result array is in point `t`'s block iff each coordinate is in the block's range on its axis. -/
theorem mem_blk (t : Fin cfg1.N) (i : S1600000x128.Idx) :
    i ∈ ((cfg1.win 2).blk t).view.set ↔ ∀ a : Fin 2, win1_2.index t a * S12800x128.size a ≤ (i a).val
      ∧ (i a).val < win1_2.index t a * S12800x128.size a + S12800x128.size a := by
  show i ∈ ((View.whole main_v53).slice (win1_2.rect t)).set ↔ _
  rw [View.set_slice_whole, Rect.mem_set_unit]
  exact Iff.rfl

/-- Row `r` of the result array lies in the block of point `r / 12800`. -/
theorem cover (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  have hN : cfg1.N = 125 := N_1
  have hq : (i 0).val / 12800 < cfg1.N := by rw [hN]; omega
  refine ⟨⟨(i 0).val / 12800, hq⟩, flush1_2 _, ?_⟩
  rw [mem_blk]
  obtain ⟨e0, e1, e2, e3, e4, e5⟩ := idx_facts ⟨(i 0).val / 12800, hq⟩
  intro a
  match a with
  | ⟨0, _⟩ =>
    show win1_2.index ⟨(i 0).val / 12800, hq⟩ (0 : Fin 2) * 12800 ≤ (i 0).val
      ∧ (i 0).val < win1_2.index ⟨(i 0).val / 12800, hq⟩ (0 : Fin 2) * 12800 + 12800
    rw [e4]; show (i 0).val / 12800 * 12800 ≤ (i 0).val ∧ (i 0).val < (i 0).val / 12800 * 12800 + 12800; omega
  | ⟨1, _⟩ =>
    show win1_2.index ⟨(i 0).val / 12800, hq⟩ (1 : Fin 2) * 128 ≤ (i 1).val
      ∧ (i 1).val < win1_2.index ⟨(i 0).val / 12800, hq⟩ (1 : Fin 2) * 128 + 128
    rw [e5]; omega

/-- The result array after the region: the rows of the gathered features scaled by the weight column. -/
theorem arr (c : Dev nD) :
    (dat1 V c).arrAt 2 cfg1.N = scaleRows (V c main_v52) (V c main_v34) :=
  (dat1 V c).arrAt_eq_of_cover 2 _ (fun t _ => flushed_eq V c t) (cover)

end Cert.KernelIdeal.Msg1

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«104343_j56908316672630_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.Spec.lean ====
/-
  The dense Chebyshev combination, on the extended reals.

  Three feature arrays `X, T₁, T₂` of `M` rows and 128 columns, a stack `W` of three 128×128 weight matrices and a
  one-row bias `b` are combined as `((X W₀ + T₁ W₁) + T₂ W₂) + b`, the bias added to every row, the sums taken in this
  order.  `slab k W` is matrix `k` of the stack.  The entry at `(p, q)` depends on row `p` of each feature array only,
  which is what lets a block of rows be read against the whole arrays (`combine_at`).
-/
import proofs.«104343_j56908316672630_1_alg».proof.Proof.LibDense
import proofs.«104343_j56908316672630_1_alg».proof.Proof.LibBiasRow

noncomputable section

open scoped BigOperators

namespace Cert.Cheb

open Idealize.ShloMosaic Idealize.ShloMosaic.ValueIdx Cert.Dense Cert.BiasRow

/-- A stack of three 128×128 matrices of extended reals. -/
abbrev Stack : Type := (⟨3, ![3, 128, 128]⟩ : Shape).Idx → EReal

/-- Matrix `k` of the stack. -/
def slab (k : Fin 3) (W : Stack) : Mat 128 128 := fun i => W (ix3 k (c0 i) (c1 i))

theorem slab_apply (k : Fin 3) (W : Stack) (p q : Fin 128) : slab k W (ix2 p q) = W (ix3 k p q) := rfl

/-- The three products added in order, before the bias. -/
def products {M : ℕ} (X T1 T2 : Mat M 128) (W : Stack) : Mat M 128 :=
  fun i => (mm X (slab 0 W) i + mm T1 (slab 1 W) i) + mm T2 (slab 2 W) i

/-- `((X W₀ + T₁ W₁) + T₂ W₂) + b`. -/
def combine {M : ℕ} (X T1 T2 : Mat M 128) (W : Stack) (b : Mat 1 128) : Mat M 128 :=
  addRow (products X T1 T2 W) b

/-- The combination at an index depends on one row of each feature array, on the stack and on the bias. -/
theorem combine_at {M M' : ℕ} (X T1 T2 : Mat M 128) (X' T1' T2' : Mat M' 128) (W : Stack) (b : Mat 1 128)
    (j : (⟨2, ![M', 128]⟩ : Shape).Idx) (i : (⟨2, ![M, 128]⟩ : Shape).Idx) (hc : c1 j = c1 i)
    (hX : ∀ k : Fin 128, X' (ix2 (c0 j) k) = X (ix2 (c0 i) k))
    (hT1 : ∀ k : Fin 128, T1' (ix2 (c0 j) k) = T1 (ix2 (c0 i) k))
    (hT2 : ∀ k : Fin 128, T2' (ix2 (c0 j) k) = T2 (ix2 (c0 i) k)) :
    combine X' T1' T2' W b j = combine X T1 T2 W b i := by
  unfold combine
  refine addRow_at _ _ _ _ j i ?_ (by rw [hc])
  unfold products
  rw [mm_at X (slab 0 W) X' (slab 0 W) j i hX (fun k => by rw [hc]),
    mm_at T1 (slab 1 W) T1' (slab 1 W) j i hT1 (fun k => by rw [hc]),
    mm_at T2 (slab 2 W) T2' (slab 2 W) j i hT2 (fun k => by rw [hc])]

end Cert.Cheb

end
-- ==== Proof.Region2.lean ====
/-
  What the combine kernel leaves in its result array.

  Each grid point takes a block of 5000 rows of each of three feature arrays, the whole stack of three 128×128 weight
  matrices and the whole one-row bias, multiplies each feature block by its matrix, adds the three products in order and
  adds the bias to every row.  An entry of the block's result depends on the same row of each feature block, on the
  stack and on the bias, so block `t` of the result is block `t` of ONE whole-array function: the combination
  `((X W₀ + T₁ W₁) + T₂ W₂) + b` of the whole arrays.  The 20 blocks tile the 100000 rows, so the result array is that
  function everywhere.
-/
import proofs.«104343_j56908316672630_1_alg».proof.Proof.Gen.KernelIdeal.Frame
import proofs.«104343_j56908316672630_1_alg».proof.Proof.Spec
import Idealize.ShloMosaic.Lib.Pipeline.Value
import Idealize.ShloMosaic.Lib.ValueLayout

set_option maxRecDepth 16384

noncomputable section

namespace Cert.KernelIdeal.Comb

open Cert.KernelIdeal Cert.KernelIdeal.Gen
open Idealize.ShloMosaic Idealize.ShloMosaic.TcCoe Idealize.SL.Sem Idealize.ShloMosaic.ValueIdx
open Idealize.ShloMosaic.Pipeline (Dat)
open Cert.Dense Cert.BiasRow Cert.Cheb

variable (V : (c : Dev nD) → (b : Ref sig .tc) → Buf (Elt Ideal) ((c : Thread nD τ).loc b))

theorem hz : (![0, 0] : Fin 2 → Nat) = fun _ => 0 := funext fun a => by fin_cases a <;> rfl

/-- One matrix of the stack, read through the rectangle of its 128×128 entries at offset `o` on the first axis and
    with the unit first axis dropped, is matrix `o` of the stack. -/
theorem slab_ld (x3 : Vec Ideal S3x128x128 .f32) (o : ℕ) (ho : o < 3)
    (inb : ∀ a, (![o, 0, 0] : Fin 3 → Nat) a + S1x128x128.size a ≤ S3x128x128.size a)
    (h : S1x128x128.ShapeCasts S128x128) :
    shapeCast S128x128 (View.ld x3 (Rect.unit (s := S3x128x128) ![o, 0, 0] S1x128x128.size inb)) h
      = slab ⟨o, ho⟩ x3 := by
  funext i
  obtain ⟨p, q, rfl⟩ : ∃ (p : Fin 128) (q : Fin 128), i = ix2 p q := ⟨i 0, i 1, eq_ix2 i⟩
  refine (shapeCast_1ab_ab_apply _ h p q).trans ?_
  show x3 _ = x3 _
  refine congrArg x3 (funext fun a => Fin.ext ?_)
  match a with
  | ⟨0, _⟩ => show o + 1 * 0 = o; omega
  | ⟨1, _⟩ => show 0 + 1 * p.val = p.val; omega
  | ⟨2, _⟩ => show 0 + 1 * q.val = q.val; omega

set_option maxHeartbeats 400000 in
/-- The body's value: the three feature blocks times the three matrices of the stack, added in order, plus the bias on
    every row.  Rounding to the narrower float format is the identity on the extended reals, a cast to the same shape
    is the identity, and a product into a zero accumulator is the matrix product. -/
theorem pay_eq (x3 : Vec Ideal S3x128x128 .f32) (a b c : Vec Ideal S5000x128 .f32) (bias : Vec Ideal S1x128 .f32) :
    k2_pay1 (View.ld x3 r2_0) (View.ld x3 r2_1) (View.ld x3 r2_2) a b c bias = combine a b c x3 bias := by
  unfold k2_pay1
  simp only [shapeCast_self]
  rw [slab_ld x3 0 (by omega), slab_ld x3 1 (by omega), slab_ld x3 2 (by omega)]
  simp only [matmul_zero_eq_mm dot_S5000x128_S128x128_S5000x128_1_0_0_1_n_n rfl rfl rfl rfl rfl rfl]
  exact vecAddRow _ bias _

/-- The feature windows and the result window move together down the rows: at point `t` each is at row block `t`,
    column block 0.  The stack's window and the bias' window stay at block 0 on every axis. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 3) = 0
    ∧ win2_3.index t (1 : Fin 3) = 0
    ∧ win2_3.index t (2 : Fin 3) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- The stack's window holds the whole stack at every point: its one block is the array. -/
theorem stack_blk (c : Dev nD) (t : Fin cfg2.N) : (iblk2 V c 3 t : Stack) = V c main_arg2 := by
  obtain ⟨e0, e1, e2, e3, e4, e5, e6, e7, e8, e9, e10, e11, e12⟩ := idx_facts t
  funext k
  show V c main_arg2 (((cfg2.win 3).blk t).view.emb k) = V c main_arg2 k
  refine congrArg _ (funext fun a => Fin.ext ?_)
  match a with
  | ⟨0, _⟩ => show win2_3.index t (0 : Fin 3) * 3 + 1 * (k 0).val = (k 0).val; omega
  | ⟨1, _⟩ => show win2_3.index t (1 : Fin 3) * 128 + 1 * (k 1).val = (k 1).val; omega
  | ⟨2, _⟩ => show win2_3.index t (2 : Fin 3) * 128 + 1 * (k 2).val = (k 2).val; omega

/-- The bias' window holds the whole bias row at every point. -/
theorem bias_blk (c : Dev nD) (t : Fin cfg2.N) : (iblk2 V c 4 t : Mat 1 128) = V c main_v60 := by
  obtain ⟨e0, e1, e2, e3, e4, e5, e6, e7, e8, e9, e10, e11, e12⟩ := idx_facts t
  funext k
  show V c main_v60 (((cfg2.win 4).blk t).view.emb k) = V c main_v60 k
  refine congrArg _ (funext fun a => Fin.ext ?_)
  match a with
  | ⟨0, _⟩ => show win2_4.index t (0 : Fin 2) * 1 + 1 * (k 0).val = (k 0).val; omega
  | ⟨1, _⟩ => show win2_4.index t (1 : Fin 2) * 128 + 1 * (k 1).val = (k 1).val; omega

set_option maxHeartbeats 400000 in
/-- What point `t` writes back is block `t` of the combination of the arrays the region finds. -/
theorem flushed_eq (c : Dev nD) (t : Fin cfg2.N) :
    (dat2 V c).flushed 5 t
      = ((cfg2.win 5).blk t).view.read (Elt Ideal)
          (combine (V c main_arg0) (V c main_v45) (V c main_v59) (V c main_arg2) (V c main_v60)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  rw [pay_eq, stack_blk, bias_blk]
  obtain ⟨e0, e1, e2, e3, e4, e5, e6, e7, e8, e9, e10, e11, e12⟩ := idx_facts t
  funext j
  show combine (iblk2 V c 0 t) (iblk2 V c 1 t) (iblk2 V c 2 t) (V c main_arg2) (V c main_v60) j
      = combine (V c main_arg0) (V c main_v45) (V c main_v59) (V c main_arg2) (V c main_v60)
          (((cfg2.win 5).blk t).view.emb j)
  refine combine_at _ _ _ _ _ _ _ _ j _ ?_ ?_ ?_ ?_
  · refine Fin.ext ?_
    show (j 1).val = win2_5.index t (1 : Fin 2) * 128 + 1 * (j 1).val
    omega
  · intro k
    show V c main_arg0 (((cfg2.win 0).blk t).view.emb (ix2 (c0 j) k))
        = V c main_arg0 (ix2 (c0 (((cfg2.win 5).blk t).view.emb j)) k)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · intro k
    show V c main_v45 (((cfg2.win 1).blk t).view.emb (ix2 (c0 j) k))
        = V c main_v45 (ix2 (c0 (((cfg2.win 5).blk t).view.emb j)) k)
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · intro k
    show V c main_v59 (((cfg2.win 2).blk t).view.emb (ix2 (c0 j) k))
        = V c main_v59 (ix2 (c0 (((cfg2.win 5).blk t).view.emb j)) k)
    refine congrArg _ (funext fun a => Fin.ext ?_)
    match a with
    | ⟨0, _⟩ => show win2_2.index t (0 : Fin 2) * 5000 + 1 * (j 0).val = win2_5.index t (0 : Fin 2) * 5000 + 1 * (j 0).val; omega
    | ⟨1, _⟩ => show win2_2.index t (1 : Fin 2) * 128 + 1 * k.val = k.val; omega

/-- An index of the result array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v61).slice (win2_5.rect t)).set ↔ _
  rw [View.set_slice_whole, Rect.mem_set_unit]
  exact Iff.rfl

/-- Row `r` of the result array lies in the block of point `r / 5000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have hq : (i 0).val / 5000 < cfg2.N := by rw [hN]; omega
  refine ⟨⟨(i 0).val / 5000, hq⟩, flush2_5 _, ?_⟩
  rw [mem_blk]
  obtain ⟨e0, e1, e2, e3, e4, e5, e6, e7, e8, e9, e10, e11, e12⟩ := idx_facts ⟨(i 0).val / 5000, hq⟩
  intro a
  match a with
  | ⟨0, _⟩ =>
    show win2_5.index ⟨(i 0).val / 5000, hq⟩ (0 : Fin 2) * 5000 ≤ (i 0).val
      ∧ (i 0).val < win2_5.index ⟨(i 0).val / 5000, hq⟩ (0 : Fin 2) * 5000 + 5000
    rw [e11]; show (i 0).val / 5000 * 5000 ≤ (i 0).val ∧ (i 0).val < (i 0).val / 5000 * 5000 + 5000; omega
  | ⟨1, _⟩ =>
    show win2_5.index ⟨(i 0).val / 5000, hq⟩ (1 : Fin 2) * 128 ≤ (i 1).val
      ∧ (i 1).val < win2_5.index ⟨(i 0).val / 5000, hq⟩ (1 : Fin 2) * 128 + 128
    rw [e12]; omega

/-- The result array after the region: the combination `((X W₀ + T₁ W₁) + T₂ W₂) + b` of the three feature arrays, the
    weight stack and the bias row the region finds. -/
theorem arr (c : Dev nD) :
    (dat2 V c).arrAt 5 cfg2.N
      = Cert.Cheb.combine (V c main_arg0) (V c main_v45) (V c main_v59) (V c main_arg2) (V c main_v60) :=
  (dat2 V c).arrAt_eq_of_cover 5 _ (fun t _ => flushed_eq V c t) (cover)

end Cert.KernelIdeal.Comb

end
-- ==== Proof.RefMath.lean ====
/-
  The reference program's stages as the Chebyshev recurrence, on the extended reals.

  A per-edge message is the gathered feature row times the edge's weight: the reference multiplies the weight, broadcast
  along the features, by the gathered row, which is the row scaling by the weight column (multiplication commutes).  The
  reference adds `0 · h` to each aggregation (its diagonal weight is zero); on the extended reals `0 · h = 0` for every
  `h`, infinite ones included, and `a + 0 = a`, so the term drops.  Its three matrix products and the bias, added in
  order, are the combination `((X W₀ + T₁ W₁) + T₂ W₂) + b` of the three Chebyshev terms.
-/
import proofs.«104343_j56908316672630_1_alg».proof.Proof.RefReadP
import proofs.«104343_j56908316672630_1_alg».proof.Proof.LibRowScale
import proofs.«104343_j56908316672630_1_alg».proof.Proof.Spec

set_option maxRecDepth 16384

noncomputable section

open scoped BigOperators

namespace Cert.ReferenceIdeal.Math

open Cert.ReferenceIdeal Cert.ReferenceIdeal.Read
open Idealize.ShloMosaic Idealize.ShloMosaic.ValueIdx
open Cert.Dense Cert.RowScale Cert.BiasRow Cert.Cheb

variable (x0 : (⟨S100000x128, .f32⟩ : BufTy).Contents (Elt Ideal)) (x1 : (⟨S2x1600000, .i32⟩ : BufTy).Contents (Elt Ideal))
  (x2 : (⟨S3x128x128, .f32⟩ : BufTy).Contents (Elt Ideal)) (x3 : (⟨S128, .f32⟩ : BufTy).Contents (Elt Ideal))

/-- Multiplication of arrays commutes. -/
theorem mulf_comm' {S : Shape} {φ : FTy} (a b : FVec Ideal S φ) : mulf a b = mulf b a :=
  funext fun i => mul_comm (a i) (b i)

/-- Adding `z · x` for an array `z` of zeros changes nothing: `0 · x = 0` at every extended real. -/
theorem add_zero_mul {S : Shape} (a z x : FVec Ideal S .f32) (hz : ∀ i, z i = 0) : addf a (mulf z x) = a :=
  funext fun i => by
    show a i + z i * x i = a i
    rw [hz i, zero_mul, add_zero]

theorem zeros50 (i : S100000x128.Idx) : val_main_v50 (F := Ideal) i = 0 := by
  rw [val_main_v50_apply, val_main_cst_12_apply]; exact Ideal.ofBits_zero_f32

theorem zeros70 (i : S100000x128.Idx) : val_main_v70 (F := Ideal) i = 0 := by
  rw [val_main_v70_apply, val_main_cst_16_apply]; exact Ideal.ofBits_zero_f32

/-- The first round's messages: the gathered rows scaled by the weight column. -/
theorem msg1 : val_main_v46 (F := Ideal) x0 x1
    = scaleRows (val_main_v44 (F := Ideal) x0 x1) (col (val_main_v33 (F := Ideal) x1)) := by
  unfold val_main_v46 val_main_v45 val_main_v37
  rw [mulf_comm']
  exact hostScaleRows _ _ _ _

/-- The second round's messages likewise. -/
theorem msg2 : val_main_v66 (F := Ideal) x0 x1
    = scaleRows (val_main_v64 (F := Ideal) x0 x1) (col (val_main_v33 (F := Ideal) x1)) := by
  unfold val_main_v66 val_main_v65 val_main_v57
  rw [mulf_comm']
  exact hostScaleRows _ _ _ _

/-- The first Chebyshev term is the aggregation alone: the zero diagonal term drops. -/
theorem t1_eq : val_main_v52 (F := Ideal) x0 x1 = val_main_v49 (F := Ideal) x0 x1 := by
  unfold val_main_v52 val_main_v51
  exact add_zero_mul _ _ _ zeros50

/-- The second aggregation likewise. -/
theorem s2_eq : val_main_v72 (F := Ideal) x0 x1 = val_main_v69 (F := Ideal) x0 x1 := by
  unfold val_main_v72 val_main_v71
  exact add_zero_mul _ _ _ zeros70

/-- Each reshaped slice of the weight stack is a slab of it. -/
theorem slab0 : val_main_v35 (F := Ideal) x2 = slab 0 x2 := by
  funext i
  obtain ⟨p, q, rfl⟩ : ∃ (p q : Fin 128), i = ix2 p q := ⟨i 0, i 1, eq_ix2 i⟩
  rw [val_main_v35_apply, val_main_v34_apply]
  refine congrArg x2 (funext fun a => Fin.ext ?_)
  have hp := p.isLt; have hq := q.isLt
  match a with
  | ⟨0, _⟩ => rfl
  | ⟨1, _⟩ => show (p.val * 128 + q.val) / 128 % 128 = p.val; omega
  | ⟨2, _⟩ => show (p.val * 128 + q.val) % 128 = q.val; omega

theorem slab1 : val_main_v54 (F := Ideal) x2 = slab 1 x2 := by
  funext i
  obtain ⟨p, q, rfl⟩ : ∃ (p q : Fin 128), i = ix2 p q := ⟨i 0, i 1, eq_ix2 i⟩
  rw [val_main_v54_apply, val_main_v53_apply]
  refine congrArg x2 (funext fun a => Fin.ext ?_)
  have hp := p.isLt; have hq := q.isLt
  match a with
  | ⟨0, _⟩ => rfl
  | ⟨1, _⟩ => show (p.val * 128 + q.val) / 128 % 128 = p.val; omega
  | ⟨2, _⟩ => show (p.val * 128 + q.val) % 128 = q.val; omega

theorem slab2 : val_main_v77 (F := Ideal) x2 = slab 2 x2 := by
  funext i
  obtain ⟨p, q, rfl⟩ : ∃ (p q : Fin 128), i = ix2 p q := ⟨i 0, i 1, eq_ix2 i⟩
  rw [val_main_v77_apply, val_main_v76_apply]
  refine congrArg x2 (funext fun a => Fin.ext ?_)
  have hp := p.isLt; have hq := q.isLt
  match a with
  | ⟨0, _⟩ => rfl
  | ⟨1, _⟩ => show (p.val * 128 + q.val) / 128 % 128 = p.val; omega
  | ⟨2, _⟩ => show (p.val * 128 + q.val) % 128 = q.val; omega

/-- The reference's result is the combination of the three Chebyshev terms. -/
theorem result_eq : val_main_v82 (F := Ideal) x0 x1 x2 x3
    = combine x0 (val_main_v52 (F := Ideal) x0 x1) (val_main_v75 (F := Ideal) x0 x1) x2 (row x3) := by
  unfold val_main_v82 val_main_v81 val_main_v80
  rw [hostAddRow]
  unfold combine
  refine congrArg (fun X => addRow X (row x3)) ?_
  unfold val_main_v79 val_main_v56 val_main_v36 val_main_v55 val_main_v78
  rw [slab0, slab1, slab2,
    hostDot_eq_mm _ rfl rfl rfl rfl rfl rfl, hostDot_eq_mm _ rfl rfl rfl rfl rfl rfl, hostDot_eq_mm _ rfl rfl rfl rfl rfl rfl]
  rfl

end Cert.ReferenceIdeal.Math

end
-- ==== Proof.HostK2.lean ====
/-
  The host operations of the idealized kernel program between and after the regions, and the program's result.

  After the first region the weighted messages are scattered to their destination nodes: the first Chebyshev term.  Its
  rows are gathered again, weighted by the second region, scattered, doubled, and the features subtracted: the second
  term.  The third region combines the features and the two terms with the weight stack and the bias.  Each buffer is
  stated as the reference program's stage of the same meaning; the reference's extra `0 · h` terms have been shown to
  vanish, so the stages agree.
-/
import proofs.«104343_j56908316672630_1_alg».proof.Proof.HostK
import proofs.«104343_j56908316672630_1_alg».proof.Proof.Region1
import proofs.«104343_j56908316672630_1_alg».proof.Proof.Region2
import proofs.«104343_j56908316672630_1_alg».proof.Proof.RefMath

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's exit -/

/-- The first region leaves the first round's messages. -/
theorem x6_v42 : W6 m ρ c (Proc.devRef .tc main_v42) = Cert.ReferenceIdeal.Read.val_main_v46 (F := Ideal) (x0 m c) (x1 m c) := by
  refine (W6_arr m ρ c 2).trans ((Cert.KernelIdeal.Msg0.arr (V5 m ρ) c).trans ?_)
  show Cert.RowScale.scaleRows (W5 m ρ c (Proc.devRef .tc main_v41)) (W5 m ρ c (Proc.devRef .tc main_v34)) = _
  rw [e5_v41, e5_v34, Cert.RowScale.shapeCast_col, ← Cert.ReferenceIdeal.Math.msg1]

theorem x6_v34 : W6 m ρ c (Proc.devRef .tc main_v34)
    = shapeCast S1600000x1 (Cert.ReferenceIdeal.Read.val_main_v33 (F := Ideal) (x1 m c)) shapeCasts_S1600000_S1600000x1 :=
  (W6_arr m ρ c 1).trans (((dat0 (V5 m ρ) c).arrAt_in 1 rfl _).trans ((A_eq0 (V5 m ρ) c 1).trans (e5_v34 m ρ c)))

theorem x6_v1 : W6 m ρ c (Proc.devRef .tc main_v1) = Cert.ReferenceIdeal.Read.val_main_v1 (F := Ideal) (x1 m c) :=
  (W6_of_ne m ρ c main_v1 (by decide)).trans (e5_v1 m ρ c)
theorem x6_v3 : W6 m ρ c (Proc.devRef .tc main_v3) = Cert.ReferenceIdeal.Read.val_main_v3 (F := Ideal) (x1 m c) :=
  (W6_of_ne m ρ c main_v3 (by decide)).trans (e5_v3 m ρ c)
theorem x6_arg0 : W6 m ρ c (Proc.devRef .tc main_arg0) = (x0 m c) :=
  (W6_of_ne m ρ c main_arg0 (by decide)).trans (e5_arg0 m ρ c)
theorem x6_arg2 : W6 m ρ c (Proc.devRef .tc main_arg2) = (x2 m c) :=
  (W6_of_ne m ρ c main_arg2 (by decide)).trans (e5_arg2 m ρ c)
theorem x6_arg3 : W6 m ρ c (Proc.devRef .tc main_arg3) = (x3 m c) :=
  (W6_of_ne m ρ c main_arg3 (by decide)).trans (e5_arg3 m ρ c)

/-! ## At the second region's entry -/

set_option maxHeartbeats 4000000 in
/-- The scattered messages: the first Chebyshev term. -/
theorem e7_v45 : W7 m ρ c (Proc.devRef .tc main_v45) = Cert.ReferenceIdeal.Read.val_main_v49 (F := Ideal) (x0 m c) (x1 m c) := by
  have l0 := x6_v3 m ρ c
  have l1 := x6_v42 m ρ c
  show StableHlo.after hostOps1 (W6 m ρ c) (Proc.devRef .tc main_v45) = _
  generalize W6 m ρ c = Wp at l0 l1 ⊢
  after_results_simp
  simp only [l0, l1]
  rfl

set_option maxHeartbeats 4000000 in
/-- Its rows gathered at the edges' sources. -/
theorem e7_v52 : W7 m ρ c (Proc.devRef .tc main_v52)
    = Host.gather Cert.ReferenceIdeal.gather_S100000x128_S1600000x1_S1600000x128_1_0_n_n_0_1_1128 (Cert.ReferenceIdeal.Read.val_main_v49 (F := Ideal) (x0 m c) (x1 m c)) (Cert.ReferenceIdeal.Read.val_main_v63 (F := Ideal) (x1 m c)) := by
  have l0 := x6_v3 m ρ c
  have l1 := x6_v42 m ρ c
  have l2 := x6_v1 m ρ c
  show StableHlo.after hostOps1 (W6 m ρ c) (Proc.devRef .tc main_v52) = _
  generalize W6 m ρ c = Wp at l0 l1 l2 ⊢
  after_results_simp
  simp only [l0, l1, l2]
  rfl

theorem e7_v34 : W7 m ρ c (Proc.devRef .tc main_v34) = shapeCast S1600000x1 (Cert.ReferenceIdeal.Read.val_main_v33 (F := Ideal) (x1 m c)) shapeCasts_S1600000_S1600000x1 := by
  have l0 := x6_v34 m ρ c
  show StableHlo.after hostOps1 (W6 m ρ c) (Proc.devRef .tc main_v34) = _
  generalize W6 m ρ c = Wp at l0 ⊢
  after_results_simp
  exact l0

theorem e7_v3 : W7 m ρ c (Proc.devRef .tc main_v3) = Cert.ReferenceIdeal.Read.val_main_v3 (F := Ideal) (x1 m c) := by
  have l0 := x6_v3 m ρ c
  show StableHlo.after hostOps1 (W6 m ρ c) (Proc.devRef .tc main_v3) = _
  generalize W6 m ρ c = Wp at l0 ⊢
  after_results_simp
  exact l0

theorem e7_arg0 : W7 m ρ c (Proc.devRef .tc main_arg0) = (x0 m c) := by
  have l0 := x6_arg0 m ρ c
  show StableHlo.after hostOps1 (W6 m ρ c) (Proc.devRef .tc main_arg0) = _
  generalize W6 m ρ c = Wp at l0 ⊢
  after_results_simp
  exact l0

theorem e7_arg2 : W7 m ρ c (Proc.devRef .tc main_arg2) = (x2 m c) := by
  have l0 := x6_arg2 m ρ c
  show StableHlo.after hostOps1 (W6 m ρ c) (Proc.devRef .tc main_arg2) = _
  generalize W6 m ρ c = Wp at l0 ⊢
  after_results_simp
  exact l0

theorem e7_arg3 : W7 m ρ c (Proc.devRef .tc main_arg3) = (x3 m c) := by
  have l0 := x6_arg3 m ρ c
  show StableHlo.after hostOps1 (W6 m ρ c) (Proc.devRef .tc main_arg3) = _
  generalize W6 m ρ c = Wp at l0 ⊢
  after_results_simp
  exact l0

/-! ## At the second region's exit -/

/-- The gathered rows of the first term are the reference's, whose extra zero term vanishes. -/
theorem v64_eq : Cert.ReferenceIdeal.Read.val_main_v64 (F := Ideal) (x0 m c) (x1 m c)
    = Host.gather Cert.ReferenceIdeal.gather_S100000x128_S1600000x1_S1600000x128_1_0_n_n_0_1_1128 (Cert.ReferenceIdeal.Read.val_main_v49 (F := Ideal) (x0 m c) (x1 m c)) (Cert.ReferenceIdeal.Read.val_main_v63 (F := Ideal) (x1 m c)) := by
  unfold Cert.ReferenceIdeal.Read.val_main_v64
  rw [Cert.ReferenceIdeal.Math.t1_eq]

/-- The second region leaves the second round's messages. -/
theorem x8_v53 : W8 m ρ c (Proc.devRef .tc main_v53) = Cert.ReferenceIdeal.Read.val_main_v66 (F := Ideal) (x0 m c) (x1 m c) := by
  refine (W8_arr m ρ c 2).trans ((Cert.KernelIdeal.Msg1.arr (V7 m ρ) c).trans ?_)
  show Cert.RowScale.scaleRows (W7 m ρ c (Proc.devRef .tc main_v52)) (W7 m ρ c (Proc.devRef .tc main_v34)) = _
  rw [e7_v52, e7_v34, Cert.RowScale.shapeCast_col, ← v64_eq, ← Cert.ReferenceIdeal.Math.msg2]

theorem x8_v45 : W8 m ρ c (Proc.devRef .tc main_v45) = Cert.ReferenceIdeal.Read.val_main_v49 (F := Ideal) (x0 m c) (x1 m c) :=
  (W8_of_ne m ρ c main_v45 (by decide)).trans (e7_v45 m ρ c)
theorem x8_v3 : W8 m ρ c (Proc.devRef .tc main_v3) = Cert.ReferenceIdeal.Read.val_main_v3 (F := Ideal) (x1 m c) :=
  (W8_of_ne m ρ c main_v3 (by decide)).trans (e7_v3 m ρ c)
theorem x8_arg0 : W8 m ρ c (Proc.devRef .tc main_arg0) = (x0 m c) :=
  (W8_of_ne m ρ c main_arg0 (by decide)).trans (e7_arg0 m ρ c)
theorem x8_arg2 : W8 m ρ c (Proc.devRef .tc main_arg2) = (x2 m c) :=
  (W8_of_ne m ρ c main_arg2 (by decide)).trans (e7_arg2 m ρ c)
theorem x8_arg3 : W8 m ρ c (Proc.devRef .tc main_arg3) = (x3 m c) :=
  (W8_of_ne m ρ c main_arg3 (by decide)).trans (e7_arg3 m ρ c)

/-! ## At the third region's entry -/

/-- The reference's second term with its vanishing zero term removed. -/
theorem v75_eq : Cert.ReferenceIdeal.Read.val_main_v75 (F := Ideal) (x0 m c) (x1 m c)
    = (subf (mulf (Cert.ReferenceIdeal.Read.val_main_v73 (F := Ideal) : FVec Ideal Cert.ReferenceIdeal.S100000x128 .f32) (Cert.ReferenceIdeal.Read.val_main_v69 (F := Ideal) (x0 m c) (x1 m c)))
        ((x0 m c) : FVec Ideal Cert.ReferenceIdeal.S100000x128 .f32) : FVec Ideal Cert.ReferenceIdeal.S100000x128 .f32) := by
  unfold Cert.ReferenceIdeal.Read.val_main_v75 Cert.ReferenceIdeal.Read.val_main_v74
  rw [Cert.ReferenceIdeal.Math.s2_eq]

set_option maxHeartbeats 4000000 in
/-- The second Chebyshev term: twice the second aggregation less the features. -/
theorem e9_v59 : W9 m ρ c (Proc.devRef .tc main_v59) = Cert.ReferenceIdeal.Read.val_main_v75 (F := Ideal) (x0 m c) (x1 m c) := by
  have l0 := x8_v3 m ρ c
  have l1 := x8_v53 m ρ c
  have l2 := x8_arg0 m ρ c
  rw [v75_eq]
  show StableHlo.after hostOps2 (W8 m ρ c) (Proc.devRef .tc main_v59) = _
  generalize W8 m ρ c = Wp at l0 l1 l2 ⊢
  after_results_simp
  simp only [l0, l1, l2]
  rfl

set_option maxHeartbeats 4000000 in
/-- The bias as one row. -/
theorem e9_v60 : W9 m ρ c (Proc.devRef .tc main_v60) = shapeCast S1x128 (x3 m c) shapeCasts_S128_S1x128 := by
  have l0 := x8_arg3 m ρ c
  show StableHlo.after hostOps2 (W8 m ρ c) (Proc.devRef .tc main_v60) = _
  generalize W8 m ρ c = Wp at l0 ⊢
  after_results_simp
  simp only [l0]
  rfl

theorem e9_v45 : W9 m ρ c (Proc.devRef .tc main_v45) = Cert.ReferenceIdeal.Read.val_main_v49 (F := Ideal) (x0 m c) (x1 m c) := by
  have l0 := x8_v45 m ρ c
  show StableHlo.after hostOps2 (W8 m ρ c) (Proc.devRef .tc main_v45) = _
  generalize W8 m ρ c = Wp at l0 ⊢
  after_results_simp
  exact l0

theorem e9_arg0 : W9 m ρ c (Proc.devRef .tc main_arg0) = (x0 m c) := by
  have l0 := x8_arg0 m ρ c
  show StableHlo.after hostOps2 (W8 m ρ c) (Proc.devRef .tc main_arg0) = _
  generalize W8 m ρ c = Wp at l0 ⊢
  after_results_simp
  exact l0

theorem e9_arg2 : W9 m ρ c (Proc.devRef .tc main_arg2) = (x2 m c) := by
  have l0 := x8_arg2 m ρ c
  show StableHlo.after hostOps2 (W8 m ρ c) (Proc.devRef .tc main_arg2) = _
  generalize W8 m ρ c = Wp at l0 ⊢
  after_results_simp
  exact l0

/-! ## The result -/

/-- The program's result array is the reference's result stage of the launch contents of the four arguments. -/
theorem out_eq : W10 m ρ c (Proc.devRef .tc main_v61) = Cert.ReferenceIdeal.Read.val_main_v82 (F := Ideal) (x0 m c) (x1 m c) (x2 m c) (x3 m c) := by
  refine (W10_arr m ρ c 5).trans ((Cert.KernelIdeal.Comb.arr (V9 m ρ) c).trans ?_)
  show Cert.Cheb.combine (W9 m ρ c (Proc.devRef .tc main_arg0)) (W9 m ρ c (Proc.devRef .tc main_v45))
      (W9 m ρ c (Proc.devRef .tc main_v59)) (W9 m ρ c (Proc.devRef .tc main_arg2)) (W9 m ρ c (Proc.devRef .tc main_v60)) = _
  rw [e9_arg0, e9_v45, e9_v59, e9_arg2, e9_v60, Cert.Dense.shapeCast_row, Cert.ReferenceIdeal.Math.result_eq, Cert.ReferenceIdeal.Math.t1_eq]

end Cert.KernelIdeal.Host

end
-- ==== Proof.lean ====
/-
  A Chebyshev graph convolution of order three: the pipelined kernel program against its array reference, on the
  extended reals.

  Both programs compute, from node features `x`, an edge list, a stack of three weight matrices and a bias,
  `out = ((T₀ W₀ + T₁ W₁) + T₂ W₂) + b` with `T₀ = x`, `T₁ = L̂ x`, `T₂ = 2 L̂ T₁ − x`, where `L̂ h` gathers the rows of
  `h` at the edges' sources, multiplies each by the edge's weight `−d(src)^(-1/2) · [src ≠ dst] · d(dst)^(-1/2)`, and adds
  the products into the rows of the edges' destinations.  The edge weights, the gathers and the scatter-additions are
  the same host operations in both programs and are never opened.  The programs differ in three places, none of which
  changes a value on the extended reals:
  * the kernel forms a message as (gathered row) · (weight), the weight column broadcast along the features inside a
    pipelined region over blocks of 12800 edges; the reference as (broadcast weight) · (gathered row): multiplication
    commutes, and the blocks tile the edges;
  * the reference adds `0 · h` to each aggregation; `0 · h = 0` for every extended real `h`, and `a + 0 = a`;
  * the kernel combines the three terms in a pipelined region over blocks of 5000 nodes, rounding its operands to a
    narrower float format, which is the identity here, with three products into zero accumulators added in the
    reference's order; an entry of a product depends on one row of its left operand, so the blocks are the blocks of the
    reference's whole-array products.
  No finiteness of the inputs is used.
-/
import proofs.«104343_j56908316672630_1_alg».proof.Defs
import proofs.«104343_j56908316672630_1_alg».proof.Proof.Gen.Kernel
import proofs.«104343_j56908316672630_1_alg».proof.Proof.Gen.Kernel.Frame
import proofs.«104343_j56908316672630_1_alg».proof.Proof.Gen.KernelIdeal
import proofs.«104343_j56908316672630_1_alg».proof.Proof.Gen.KernelIdeal.Frame
import proofs.«104343_j56908316672630_1_alg».proof.Proof.Gen.ReferenceIdeal
import proofs.«104343_j56908316672630_1_alg».proof.Proof.Gen.Pre_finite_inputs
import proofs.«104343_j56908316672630_1_alg».proof.Proof.KRun
import proofs.«104343_j56908316672630_1_alg».proof.Proof.HostK2
import proofs.«104343_j56908316672630_1_alg».proof.Proof.RefReadP
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference program runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's result stage of the arguments' launch contents. -/
theorem algebraic : Cert.algebraic_KernelIdeal_ReferenceIdeal := by
  intro m ρ m' ρ' _ hagree
  refine ⟨fun c => Cert.ReferenceIdeal.Read.val_main_v82 (F := Ideal) (Cert.KernelIdeal.Host.x0 m c)
    (Cert.KernelIdeal.Host.x1 m c) (Cert.KernelIdeal.Host.x2 m c) (Cert.KernelIdeal.Host.x3 m c), ?_, ?_⟩
  · exact (θ_run Cert.KernelIdeal.defs _ _).mono
      (fun _ h c => ⟨(h c).1.trans (Cert.KernelIdeal.Host.out_eq m ρ c), (h c).2⟩)
      (Cert.KernelIdeal.Out.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v82_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
